-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S768 : Shape := ⟨1, ![768]⟩
abbrev S64x768 : Shape := ⟨2, ![64, 768]⟩
abbrev S64 : Shape := ⟨1, ![64]⟩
abbrev S768x64 : Shape := ⟨2, ![768, 64]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S768 : S_.BroadcastsInDim S768 (![] : Fin 0 → Fin S768.rank)
  reducesTo_S768_S_d0 : S768.ReducesTo [0] S_
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_
  bcast_S_S768x64 : S_.BroadcastsInDim S768x64 (![] : Fin 0 → Fin S768x64.rank)
  reducesTo_S768x64_S_d0_1 : S768x64.ReducesTo [0, 1] S_

variable [Facts]

def fn_part1 {F : FTy → Type} [FloatOps F] (main_arg4 : FVec F S64 .f32) (main_arg5 : FVec F S768x64 .f32) (main_arg6 : FVec F S768 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x4096x768 .f32) (main_arg1 : FVec F S768 .f32) (main_arg2 : FVec F S768 .f32) (main_arg3 : FVec F S64x768 .f32) (main_arg4 : FVec F S64 .f32) (main_arg5 : FVec F S768x64 .f32) (main_arg6 : FVec F S768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg4 main_arg5 main_arg6 main_v13 main_v16
-- ==== Kernel.lean ====
abbrev S8x4096x768 : Shape := ⟨3, ![8, 4096, 768]⟩
abbrev S768 : Shape := ⟨1, ![768]⟩
abbrev S64x768 : Shape := ⟨2, ![64, 768]⟩
abbrev S64 : Shape := ⟨1, ![64]⟩
abbrev S768x64 : Shape := ⟨2, ![768, 64]⟩
abbrev S32768x768 : Shape := ⟨2, ![32768, 768]⟩
abbrev S_ : Shape := ⟨0, ![]⟩
abbrev S768x128 : Shape := ⟨2, ![768, 128]⟩
abbrev S128 : Shape := ⟨1, ![128]⟩
abbrev S128x768 : Shape := ⟨2, ![128, 768]⟩
abbrev S1x768 : Shape := ⟨2, ![1, 768]⟩
abbrev S1x128 : Shape := ⟨2, ![1, 128]⟩
abbrev S2048x768 : Shape := ⟨2, ![2048, 768]⟩
abbrev S512x768 : Shape := ⟨2, ![512, 768]⟩
abbrev S512 : Shape := ⟨1, ![512]⟩
abbrev S512x1 : Shape := ⟨2, ![512, 1]⟩
abbrev S512x128 : Shape := ⟨2, ![512, 128]⟩

abbrev nBuf : Space → Nat
  | .hbm => 25
  | .vmem => 10
  | .smem => 0
  | _ => 0

abbrev bufTy : (tb : Table) → Fin (tcTables nBuf tb) → BufTy
  | .hbm, ⟨0, _⟩ => ⟨S8x4096x768, .f32⟩
  | .hbm, ⟨1, _⟩ => ⟨S768, .f32⟩
  | .hbm, ⟨2, _⟩ => ⟨S768, .f32⟩
  | .hbm, ⟨3, _⟩ => ⟨S64x768, .f32⟩
  | .hbm, ⟨4, _⟩ => ⟨S64, .f32⟩
  | .hbm, ⟨5, _⟩ => ⟨S768x64, .f32⟩
  | .hbm, ⟨6, _⟩ => ⟨S768, .f32⟩
  | .hbm, ⟨7, _⟩ => ⟨S32768x768, .f32⟩
  | .hbm, ⟨8, _⟩ => ⟨S768x64, .f32⟩
  | .hbm, ⟨9, _⟩ => ⟨S64x768, .f32⟩
  | .hbm, ⟨10, _⟩ => ⟨S_, .i32⟩
  | .hbm, ⟨11, _⟩ => ⟨S_, .f32⟩
  | .hbm, ⟨12, _⟩ => ⟨S768x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S_, .i32⟩
  | .hbm, ⟨17, _⟩ => ⟨S_, .f32⟩
  | .hbm, ⟨18, _⟩ => ⟨S128x768, .f32⟩
  | .hbm, ⟨19, _⟩ => ⟨S1x768, .f32⟩
  | .hbm, ⟨20, _⟩ => ⟨S1x768, .f32⟩
  | .hbm, ⟨21, _⟩ => ⟨S1x128, .f32⟩
  | .hbm, ⟨22, _⟩ => ⟨S1x768, .f32⟩
  | .hbm, ⟨23, _⟩ => ⟨S32768x768, .f32⟩
  | .hbm, ⟨24, _⟩ => ⟨S8x4096x768, .f32⟩
  | .local _ .vmem, ⟨0, _⟩ => ⟨S2048x768, .f32⟩
  | .local _ .vmem, ⟨1, _⟩ => ⟨S2048x768, .f32⟩
  | .local _ .vmem, ⟨2, _⟩ => ⟨S1x768, .f32⟩
  | .local _ .vmem, ⟨3, _⟩ => ⟨S1x768, .f32⟩
  | .local _ .vmem, ⟨4, _⟩ => ⟨S768x128, .f32⟩
  | .local _ .vmem, ⟨5, _⟩ => ⟨S1x128, .f32⟩
  | .local _ .vmem, ⟨6, _⟩ => ⟨S128x768, .f32⟩
  | .local _ .vmem, ⟨7, _⟩ => ⟨S1x768, .f32⟩
  | .local _ .vmem, ⟨8, _⟩ => ⟨S2048x768, .f32⟩
  | .local _ .vmem, ⟨9, _⟩ => ⟨S2048x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v15 : BitVec 32 := Scalar.muli arg9 c512_i32
  v15
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v15 : BitVec 32 := Scalar.muli arg9 c512_i32
  let v16 : BitVec 32 := v15
  let v17 : Index := Scalar.indexCast v16
  let c0_12 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x768_S32768x768 : S8x4096x768.ShapeCasts S32768x768
  transposes_S64x768_S768x64_1_0 : S64x768.Transposes [1, 0] S768x64
  transposes_S768x64_S64x768_1_0 : S768x64.Transposes [1, 0] S64x768
  pads_S768x64_S768x128_000_0640 : S768x64.Pads (![0, 0] : Fin 2 → Nat) ![0, 64] ![0, 0] S768x128
  h_S_ : 0 < S_.numel
  pads_S64_S128_0640 : S64.Pads (![0] : Fin 1 → Nat) ![64] ![0] S128
  pads_S64x768_S128x768_0640_000 : S64x768.Pads (![0, 0] : Fin 2 → Nat) ![64, 0] ![0, 0] S128x768
  shapeCasts_S768_S1x768 : S768.ShapeCasts S1x768
  shapeCasts_S128_S1x128 : S128.ShapeCasts S1x128
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S768x128_S768x128_0_0 : ∀ a, (![0, 0] : Fin 2 → Nat) a + S768x128.size a ≤ S768x128.size a
  h_S768x128 : 0 < S768x128.numel
  shapeCasts_S768x128_S768x128 : S768x128.ShapeCasts S768x128
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  shapeCasts_S128x768_S128x768 : S128x768.ShapeCasts S128x768
  h_S512x768 : 0 < S512x768.numel
  shapeCasts_S512x768_S512x768 : S512x768.ShapeCasts S512x768
  reduces_S512x768_S512 : S512x768.Reduces [1] S512
  shapeCasts_S512_S512x1 : S512.ShapeCasts S512x1
  broadcasts_S512x1_S512x768 : S512x1.Broadcasts S512x768
  broadcasts_S1x768_S512x768 : S1x768.Broadcasts S512x768
  broadcasts_S1x128_S512x128 : S1x128.Broadcasts S512x128
  shapeCasts_S32768x768_S8x4096x768 : S32768x768.ShapeCasts S8x4096x768
  dot_S512x768_S768x128_S512x128_1_0_0_1_n_n_wf : DotDims.WF S512x768 S768x128 S512x128 [1] [0] [0] [1] [] []
  dot_S512x128_S128x768_S512x768_1_0_0_1_n_n_wf : DotDims.WF S512x128 S128x768 S512x768 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x768.size a ≤ S2048x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x128.size a ≤ S768x128.size a
  hwx0_3 : ∀ i : grid0.Coords, EltTy.bits .f32 = 32 ∨ (Rect.block (s := S768x128) S768x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x768.size a ≤ S128x768.size a
  hwx0_5 : ∀ i : grid0.Coords, EltTy.bits .f32 = 32 ∨ (Rect.block (s := S128x768) S128x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x768.size a ≤ S32768x768.size a
  hwx0_7 : ∀ i : grid0.Coords, EltTy.bits .f32 = 32 ∨ (Rect.block (s := S32768x768) S2048x768.size (cc0_transform_7 i) (hinb0_7 i)).WholeWords (EltTy.packing .f32)

variable [Facts₀]

def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S512x128_S128x768_S512x768_1_0_0_1_n_n : DotDims S512x128 S128x768 S512x768 where
  lhsContracting := [1]
  rhsContracting := [0]
  lhsNonContracting := [0]
  rhsNonContracting := [1]
  lhsBatch := []
  rhsBatch := []
  wf := dot_S512x128_S128x768_S512x768_1_0_0_1_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S2048x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where
  halias0_7 : Pipeline.Aliased win0 0 7

variable [Facts]
-- ==== ReferenceIdeal.lean ====
abbrev S8x4096x768 : Shape := ⟨3, ![8, 4096, 768]⟩
abbrev S768 : Shape := ⟨1, ![768]⟩
abbrev S64x768 : Shape := ⟨2, ![64, 768]⟩
abbrev S64 : Shape := ⟨1, ![64]⟩
abbrev S768x64 : Shape := ⟨2, ![768, 64]⟩
abbrev S_ : Shape := ⟨0, ![]⟩
abbrev S8x4096 : Shape := ⟨2, ![8, 4096]⟩
abbrev S8x4096x1 : Shape := ⟨3, ![8, 4096, 1]⟩
abbrev S1x1x768 : Shape := ⟨3, ![1, 1, 768]⟩
abbrev S8x4096x64 : Shape := ⟨3, ![8, 4096, 64]⟩
abbrev S1x1x64 : Shape := ⟨3, ![1, 1, 64]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S768, .f32⟩
  | .hbm, ⟨2, _⟩ => ⟨S768, .f32⟩
  | .hbm, ⟨3, _⟩ => ⟨S64x768, .f32⟩
  | .hbm, ⟨4, _⟩ => ⟨S64, .f32⟩
  | .hbm, ⟨5, _⟩ => ⟨S768x64, .f32⟩
  | .hbm, ⟨6, _⟩ => ⟨S768, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x768, .f32⟩
  | .hbm, ⟨14, _⟩ => ⟨S8x4096x768, .f32⟩
  | .hbm, ⟨15, _⟩ => ⟨S8x4096x768, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x768, .f32⟩
  | .hbm, ⟨23, _⟩ => ⟨S8x4096x768, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x768, .f32⟩
  | .hbm, ⟨29, _⟩ => ⟨S8x4096x768, .f32⟩
  | .hbm, ⟨30, _⟩ => ⟨S1x1x768, .f32⟩
  | .hbm, ⟨31, _⟩ => ⟨S8x4096x768, .f32⟩
  | .hbm, ⟨32, _⟩ => ⟨S8x4096x768, .f32⟩
  | .hbm, ⟨33, _⟩ => ⟨S1x1x768, .f32⟩
  | .hbm, ⟨34, _⟩ => ⟨S8x4096x768, .f32⟩
  | .hbm, ⟨35, _⟩ => ⟨S8x4096x768, .f32⟩
  | .hbm, ⟨36, _⟩ => ⟨S8x4096x64, .f32⟩
  | .hbm, ⟨37, _⟩ => ⟨S1x1x64, .f32⟩
  | .hbm, ⟨38, _⟩ => ⟨S8x4096x64, .f32⟩
  | .hbm, ⟨39, _⟩ => ⟨S8x4096x64, .f32⟩
  | .hbm, ⟨40, _⟩ => ⟨S_, .f32⟩
  | .hbm, ⟨41, _⟩ => ⟨S8x4096x64, .f32⟩
  | .hbm, ⟨42, _⟩ => ⟨S8x4096x64, .f32⟩
  | .hbm, ⟨43, _⟩ => ⟨S8x4096x768, .f32⟩
  | .hbm, ⟨44, _⟩ => ⟨S1x1x768, .f32⟩
  | .hbm, ⟨45, _⟩ => ⟨S8x4096x768, .f32⟩
  | .hbm, ⟨46, _⟩ => ⟨S8x4096x768, .f32⟩
  | .hbm, ⟨47, _⟩ => ⟨S_, .f32⟩
  | .hbm, ⟨48, _⟩ => ⟨S8x4096x768, .f32⟩
  | .hbm, ⟨49, _⟩ => ⟨S8x4096x768, .f32⟩
  | .hbm, ⟨50, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  reducesTo_S8x4096x768_S8x4096_d2 : S8x4096x768.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x768_0_1_2 : S8x4096x1.BroadcastsInDim S8x4096x768 (![0, 1, 2] : Fin 3 → Fin S8x4096x768.rank)
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x64 : S_.BroadcastsInDim S8x4096x64 (![] : Fin 0 → Fin S8x4096x64.rank)
  bcast_S_S8x4096x768 : S_.BroadcastsInDim S8x4096x768 (![] : Fin 0 → Fin S8x4096x768.rank)
  dot_S8x4096x768_S64x768_S8x4096x64_2_1_01_0_n_n_wf : DotDims.WF S8x4096x768 S64x768 S8x4096x64 [2] [1] [0, 1] [0] [] []
  dot_S8x4096x64_S768x64_S8x4096x768_2_1_01_0_n_n_wf : DotDims.WF S8x4096x64 S768x64 S8x4096x768 [2] [1] [0, 1] [0] [] []

variable [Facts₀]

def dot_S8x4096x768_S64x768_S8x4096x64_2_1_01_0_n_n : DotDims S8x4096x768 S64x768 S8x4096x64 where
  lhsContracting := [2]
  rhsContracting := [1]
  lhsNonContracting := [0, 1]
  rhsNonContracting := [0]
  lhsBatch := []
  rhsBatch := []
  wf := dot_S8x4096x768_S64x768_S8x4096x64_2_1_01_0_n_n_wf
def dot_S8x4096x64_S768x64_S8x4096x768_2_1_01_0_n_n : DotDims S8x4096x64 S768x64 S8x4096x768 where
  lhsContracting := [2]
  rhsContracting := [1]
  lhsNonContracting := [0, 1]
  rhsNonContracting := [0]
  lhsBatch := []
  rhsBatch := []
  wf := dot_S8x4096x64_S768x64_S8x4096x768_2_1_01_0_n_n_wf

class Facts : Prop extends Facts₀ where

variable [Facts]
-- ==== Proof.RowSpec.lean ====
/-
  One row of the adapter, over the extended reals.

  A row `x` of width `D` is layer-normalised (mean and variance as sums divided by the literal 768, the
  reciprocal square root of variance plus the literal 1e-5, an affine map by `g`, `β`), projected down to a hidden
  width `H` (`W`, bias `b`), clipped below at the literal zero, projected back up (`U`, bias `c`), scaled by the
  literal one and added to `x`.  Both programs compute this function of a row; they differ only in the hidden
  width: one uses the 64 hidden units as given, the other 128 of which the last 64 have zero rows in `U`.
  `adapter_pad` is the law joining them: a hidden unit whose row of `U` is zero contributes `h · 0 = 0` to every
  output, whatever `h` is (in the extended reals `h · 0 = 0` also at the infinities), so the sum over the padded
  hidden units is the sum over the real ones.  No finiteness of the inputs is used.
-/
import Idealize.ShloMosaic.PureOps.Ideal

noncomputable section

open Idealize.ShloMosaic
open scoped BigOperators

namespace Cert.AdapterRow

/-- The literal `768.0`. -/
abbrev nModel : EReal := Ideal.ofBits .f32 0x44400000#32
/-- The literal `1e-5` as single precision spells it. -/
abbrev eps : EReal := Ideal.ofBits .f32 0x3727C5AC#32
/-- The literal `0.0`. -/
abbrev zeroLit : EReal := Ideal.ofBits .f32 0x00000000#32
/-- The literal `1.0`. -/
abbrev oneLit : EReal := Ideal.ofBits .f32 0x3F800000#32

variable {D H : ℕ}

/-- The row's mean: its sum over the literal 768. -/
def mean (x : Fin D → EReal) : EReal := Ideal.div (∑ d, x d) nModel

/-- The row with its mean subtracted. -/
def centred (x : Fin D → EReal) (d : Fin D) : EReal := x d - mean x

/-- The mean of the squares of the centred row. -/
def variance (x : Fin D → EReal) : EReal := Ideal.div (∑ d, centred x d * centred x d) nModel

/-- The layer-normalised row: centred, times the reciprocal square root of variance plus epsilon, times the gain, plus the shift. -/
def normed (x g β : Fin D → EReal) (d : Fin D) : EReal :=
  centred x d * Ideal.rsqrt (variance x + eps) * g d + β d

/-- Hidden unit `k`: the normalised row against column `k` of `W`, plus the bias, clipped below at zero. -/
def hidden (x g β : Fin D → EReal) (W : Fin D → Fin H → EReal) (b : Fin H → EReal) (k : Fin H) : EReal :=
  max ((∑ d, normed x g β d * W d k) + b k) zeroLit

/-- Output `e` of the row: the hidden units against column `e` of `U`, plus the bias, times one, plus the row itself. -/
def adapter (x g β : Fin D → EReal) (W : Fin D → Fin H → EReal) (b : Fin H → EReal) (U : Fin H → Fin D → EReal)
    (c : Fin D → EReal) (e : Fin D) : EReal :=
  ((∑ k, hidden x g β W b k * U k e) + c e) * oneLit + x e

/-- Padding the hidden width with units whose rows of `U` are zero does not change the row's output: on the first
    `H` units the padded arrays are the given ones, and each of the last `P` units contributes `h · 0 = 0`. -/
theorem adapter_pad {P : ℕ} (x g β : Fin D → EReal)
    (W : Fin D → Fin H → EReal) (b : Fin H → EReal) (U : Fin H → Fin D → EReal) (c : Fin D → EReal)
    (W' : Fin D → Fin (H + P) → EReal) (b' : Fin (H + P) → EReal) (U' : Fin (H + P) → Fin D → EReal)
    (hW : ∀ d k, W' d (Fin.castAdd P k) = W d k) (hb : ∀ k, b' (Fin.castAdd P k) = b k)
    (hU : ∀ k e, U' (Fin.castAdd P k) e = U k e) (hU0 : ∀ k e, U' (Fin.natAdd H k) e = 0) (e : Fin D) :
    adapter x g β W' b' U' c e = adapter x g β W b U c e := by
  unfold adapter
  rw [Fin.sum_univ_add]
  have h1 : ∀ k : Fin H, hidden x g β W' b' (Fin.castAdd P k) = hidden x g β W b k := by
    intro k
    unfold hidden
    rw [hb]
    simp only [hW]
  have h2 : ∑ k : Fin P, hidden x g β W' b' (Fin.natAdd H k) * U' (Fin.natAdd H k) e = 0 :=
    Finset.sum_eq_zero fun k _ => by rw [hU0, mul_zero]
  rw [h2, add_zero]
  simp only [h1, hU]

/-- The adapter of equal arguments is equal (each argument rewritten separately). -/
theorem adapter_args_congr {x x' g g' β β' : Fin D → EReal} {W W' : Fin D → Fin H → EReal} {b b' : Fin H → EReal}
    {U U' : Fin H → Fin D → EReal} {c c' : Fin D → EReal} {e e' : Fin D}
    (hx : x = x') (hg : g = g') (hβ : β = β') (hW : W = W') (hb : b = b') (hU : U = U') (hc : c = c') (he : e = e') :
    adapter x g β W b U c e = adapter x' g' β' W' b' U' c' e' := by
  subst hx hg hβ hW hb hU hc he
  rfl

end Cert.AdapterRow

end
-- ==== Proof.PayloadRow.lean ====
/-
  The body's arithmetic, read one row at a time.

  The kernel body turns a block of 512 rows (each of width 768) into a block of the same shape.  Every operation
  in it is either pointwise, a sum along a row, a column spread back along its row, a parameter row spread over the
  rows, or a matrix product whose left factor is the block: so row `r` of the result depends only on row `r` of
  the block, and it is `AdapterRow.adapter` of that row with the hidden width 128.  The steps: name the body's
  non-pointwise operations, read each at an index (a row sum is a sum over the 768 columns; a product's entry is the
  sum over the contracted index of the products of entries), then compose.
-/
import proofs.«138028_j86646670230187_2_alg».proof.Proof.Gen.KernelIdeal.Skeleton
import proofs.«138028_j86646670230187_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx
open scoped BigOperators

/-! ## The operations that are not pointwise, each read at an index -/

/-- The sums of the rows of a block, kept as a column. -/
def rowSums (v : FVec Ideal S512x768 .f32) : FVec Ideal S512x1 .f32 :=
  shapeCast S512x1 (multiReduction .add [1] S512 v 0x00000000#32 reduces_S512x768_S512 (.inl rfl) rfl) shapeCasts_S512_S512x1

/-- Entry `r` of that column is the sum of row `r` over its 768 columns. -/
theorem rowSums_apply (v : FVec Ideal S512x768 .f32) (r : Fin 512) :
    rowSums v (ix2 r (0 : Fin 1)) = ∑ d : Fin 768, v (ix2 r d) := by
  unfold rowSums
  refine (shapeCast_apply _ shapeCasts_S512_S512x1 (ix2 r (0 : Fin 1)) (ix1 r) (by
    rw [Shape.rowMajor_val_two, Shape.rowMajor_val_one]
    show r.val = r.val * 1 + 0
    omega)).trans ?_
  refine (Ideal.multiReduction_add_single v 0x00000000#32 reduces_S512x768_S512 (.inl rfl) rfl (ix1 r)).trans ?_
  exact Finset.sum_congr rfl fun d _ => congrArg v (funext fun a => Fin.ext (by
    match a with
    | ⟨0, _⟩ => rfl
    | ⟨1, _⟩ => rfl))

/-- A column spread along the rows. -/
def spreadCol (u : FVec Ideal S512x1 .f32) : FVec Ideal S512x768 .f32 :=
  broadcastTo S512x768 u broadcasts_S512x1_S512x768

/-- Every entry of row `r` is the column's entry `r`. -/
theorem spreadCol_apply (u : FVec Ideal S512x1 .f32) (r : Fin 512) (e : Fin 768) :
    spreadCol u (ix2 r e) = u (ix2 r (0 : Fin 1)) := by
  unfold spreadCol
  refine broadcastTo_apply u broadcasts_S512x1_S512x768 (ix2 r e) (ix2 r (0 : Fin 1)) fun ax => ?_
  match ax with
  | ⟨0, _⟩ => rfl
  | ⟨1, _⟩ => rfl

/-- A parameter row of width 768 spread over the 512 rows, -/
def spreadRow768 (u : FVec Ideal S1x768 .f32) : FVec Ideal S512x768 .f32 :=
  broadcastTo S512x768 u broadcasts_S1x768_S512x768

theorem spreadRow768_apply (u : FVec Ideal S1x768 .f32) (r : Fin 512) (e : Fin 768) :
    spreadRow768 u (ix2 r e) = u (ix2 (0 : Fin 1) e) :=
  broadcastTo_1b_ab_apply u broadcasts_S1x768_S512x768 r e

/-- and one of width 128. -/
def spreadRow128 (u : FVec Ideal S1x128 .f32) : FVec Ideal S512x128 .f32 :=
  broadcastTo S512x128 u broadcasts_S1x128_S512x128

theorem spreadRow128_apply (u : FVec Ideal S1x128 .f32) (r : Fin 512) (k : Fin 128) :
    spreadRow128 u (ix2 r k) = u (ix2 (0 : Fin 1) k) :=
  broadcastTo_1b_ab_apply u broadcasts_S1x128_S512x128 r k

/-- The down projection's dimension numbers (rows × 768 times 768 × 128) and the up projection's (rows × 128 times 128 × 768). -/
abbrev dimsDown := dot_S512x768_S768x128_S512x128_1_0_0_1_n_n
abbrev dimsUp := dot_S512x128_S128x768_S512x768_1_0_0_1_n_n

/-- The free coordinates of the two products' operand indices: the left operand keeps the output's row, the right one its column. -/
theorem down_lhs_row (j : S512x128.Idx) (q : dimsDown.contr.Idx) : (dimsDown.lhsIdx j q 0).val = (j 0).val := by
  unfold DotDims.lhsIdx
  rw [dif_neg (show ¬(0 : Fin S512x768.rank) ∈ dimsDown.lhsBatch by decide), dif_pos (show (0 : Fin S512x768.rank) ∈ dimsDown.lhsNonContracting by decide)]
  rfl
theorem down_rhs_col (j : S512x128.Idx) (q : dimsDown.contr.Idx) : (dimsDown.rhsIdx j q 1).val = (j 1).val := by
  unfold DotDims.rhsIdx
  rw [dif_neg (show ¬(1 : Fin S768x128.rank) ∈ dimsDown.rhsBatch by decide), dif_pos (show (1 : Fin S768x128.rank) ∈ dimsDown.rhsNonContracting by decide)]
  rfl
theorem up_lhs_row (j : S512x768.Idx) (q : dimsUp.contr.Idx) : (dimsUp.lhsIdx j q 0).val = (j 0).val := by
  unfold DotDims.lhsIdx
  rw [dif_neg (show ¬(0 : Fin S512x128.rank) ∈ dimsUp.lhsBatch by decide), dif_pos (show (0 : Fin S512x128.rank) ∈ dimsUp.lhsNonContracting by decide)]
  rfl
theorem up_rhs_col (j : S512x768.Idx) (q : dimsUp.contr.Idx) : (dimsUp.rhsIdx j q 1).val = (j 1).val := by
  unfold DotDims.rhsIdx
  rw [dif_neg (show ¬(1 : Fin S128x768.rank) ∈ dimsUp.rhsBatch by decide), dif_pos (show (1 : Fin S128x768.rank) ∈ dimsUp.rhsNonContracting by decide)]
  rfl

/-- The product of a block with the down matrix, into zeros. -/
def projDown (a : FVec Ideal S512x768 .bf16) (w : FVec Ideal S768x128 .bf16) : FVec Ideal S512x128 .f32 :=
  matmul dimsDown none a w (constant S512x128 .f32 0x00000000#32)

/-- Entry `(r, k)` of it is the sum over the 768 columns of row `r` times column `k` of the matrix. -/
theorem projDown_apply (a : FVec Ideal S512x768 .bf16) (w : FVec Ideal S768x128 .bf16) (r : Fin 512) (k : Fin 128) :
    projDown a w (ix2 r k) = ∑ d : Fin 768, a (ix2 r d) * w (ix2 d k) := by
  unfold projDown
  simp only [matmul]
  rw [Ideal.matmul_constant_zero_apply, ← Equiv.sum_comp (contrEquiv1 dimsDown 768 rfl rfl).symm]
  refine Finset.sum_congr rfl fun d _ => ?_
  have hd := contrEquiv1_symm_val dimsDown 768 rfl rfl d
  have el : dimsDown.lhsIdx (ix2 r k) ((contrEquiv1 dimsDown 768 rfl rfl).symm d) = ix2 r d := funext fun ax => Fin.ext (by
    match ax with
    | ⟨0, _⟩ => exact down_lhs_row _ _
    | ⟨1, _⟩ => exact (dimsDown.lhsIdx_val_of_single rfl _ _).trans hd)
  have er : dimsDown.rhsIdx (ix2 r k) ((contrEquiv1 dimsDown 768 rfl rfl).symm d) = ix2 d k := funext fun ax => Fin.ext (by
    match ax with
    | ⟨0, _⟩ => exact (dimsDown.rhsIdx_val_of_single rfl _ _).trans hd
    | ⟨1, _⟩ => exact down_rhs_col _ _)
  rw [el, er]

/-- The product of the hidden block with the up matrix, into zeros. -/
def projUp (h : FVec Ideal S512x128 .bf16) (w : FVec Ideal S128x768 .bf16) : FVec Ideal S512x768 .f32 :=
  matmul dimsUp none h w (constant S512x768 .f32 0x00000000#32)

/-- Entry `(r, e)` of it is the sum over the 128 hidden units of row `r` times column `e` of the matrix. -/
theorem projUp_apply (h : FVec Ideal S512x128 .bf16) (w : FVec Ideal S128x768 .bf16) (r : Fin 512) (e : Fin 768) :
    projUp h w (ix2 r e) = ∑ k : Fin 128, h (ix2 r k) * w (ix2 k e) := by
  unfold projUp
  simp only [matmul]
  rw [Ideal.matmul_constant_zero_apply, ← Equiv.sum_comp (contrEquiv1 dimsUp 128 rfl rfl).symm]
  refine Finset.sum_congr rfl fun k _ => ?_
  have hk := contrEquiv1_symm_val dimsUp 128 rfl rfl k
  have el : dimsUp.lhsIdx (ix2 r e) ((contrEquiv1 dimsUp 128 rfl rfl).symm k) = ix2 r k := funext fun ax => Fin.ext (by
    match ax with
    | ⟨0, _⟩ => exact up_lhs_row _ _
    | ⟨1, _⟩ => exact (dimsUp.lhsIdx_val_of_single rfl _ _).trans hk)
  have er : dimsUp.rhsIdx (ix2 r e) ((contrEquiv1 dimsUp 128 rfl rfl).symm k) = ix2 k e := funext fun ax => Fin.ext (by
    match ax with
    | ⟨0, _⟩ => exact (dimsUp.rhsIdx_val_of_single rfl _ _).trans hk
    | ⟨1, _⟩ => exact up_rhs_col _ _)
  rw [el, er]

/-- The reciprocal square root of a vector, at an index. -/
theorem rsqrt_apply {s : Shape} {φ : FTy} (a : FVec Ideal s φ) (i : s.Idx) : rsqrt a i = Ideal.rsqrt (a i) := rfl

/-! ## The body, stage by stage -/

/-- The block with each row's mean subtracted. -/
def centredBlk (x : FVec Ideal S512x768 .f32) : FVec Ideal S512x768 .f32 :=
  subf x (spreadCol (divf (rowSums x) (broadcast S512x1 (Scalar.ofBits .f32 0x44400000#32))))

theorem centredBlk_apply (x : FVec Ideal S512x768 .f32) (r : Fin 512) (d : Fin 768) :
    centredBlk x (ix2 r d) = AdapterRow.centred (fun d' => x (ix2 r d')) d := by
  unfold centredBlk AdapterRow.centred AdapterRow.mean
  rw [subf_apply, spreadCol_apply, divf_apply, rowSums_apply, broadcast_apply]
  rfl

/-- The layer-normalised block. -/
def normedBlk (x : FVec Ideal S512x768 .f32) (g β : FVec Ideal S1x768 .f32) : FVec Ideal S512x768 .f32 :=
  addf (mulf (mulf (centredBlk x) (spreadCol (rsqrt (addf
    (divf (rowSums (mulf (centredBlk x) (centredBlk x))) (broadcast S512x1 (Scalar.ofBits .f32 0x44400000#32)))
    (broadcast S512x1 (Scalar.ofBits .f32 0x3727C5AC#32)))))) (spreadRow768 g)) (spreadRow768 β)

theorem normedBlk_apply (x : FVec Ideal S512x768 .f32) (g β : FVec Ideal S1x768 .f32) (r : Fin 512) (d : Fin 768) :
    normedBlk x g β (ix2 r d)
      = AdapterRow.normed (fun d' => x (ix2 r d')) (fun d' => g (ix2 (0 : Fin 1) d')) (fun d' => β (ix2 (0 : Fin 1) d')) d := by
  unfold normedBlk AdapterRow.normed AdapterRow.variance
  rw [addf_apply, mulf_apply, mulf_apply, centredBlk_apply, spreadCol_apply, rsqrt_apply, addf_apply, divf_apply,
    rowSums_apply, broadcast_apply, broadcast_apply, spreadRow768_apply, spreadRow768_apply]
  simp only [mulf_apply, centredBlk_apply]
  rfl

/-- The hidden block: the normalised block against the down matrix, plus the bias row, clipped below at zero. -/
def hiddenBlk (x : FVec Ideal S512x768 .f32) (g β : FVec Ideal S1x768 .f32) (W : FVec Ideal S768x128 .f32)
    (b : FVec Ideal S1x128 .f32) : FVec Ideal S512x128 .f32 :=
  maximumf (addf (projDown (truncf .bf16 (normedBlk x g β) bitsLt_bf16_f32) (truncf .bf16 W bitsLt_bf16_f32)) (spreadRow128 b))
    (broadcast S512x128 (Scalar.ofBits .f32 0x00000000#32))

theorem hiddenBlk_apply (x : FVec Ideal S512x768 .f32) (g β : FVec Ideal S1x768 .f32) (W : FVec Ideal S768x128 .f32)
    (b : FVec Ideal S1x128 .f32) (r : Fin 512) (k : Fin 128) :
    hiddenBlk x g β W b (ix2 r k)
      = AdapterRow.hidden (fun d' => x (ix2 r d')) (fun d' => g (ix2 (0 : Fin 1) d')) (fun d' => β (ix2 (0 : Fin 1) d'))
          (fun d' k' => W (ix2 d' k')) (fun k' => b (ix2 (0 : Fin 1) k')) k := by
  unfold hiddenBlk AdapterRow.hidden
  rw [maximumf_apply, addf_apply, projDown_apply, spreadRow128_apply, broadcast_apply]
  simp only [truncf_apply, normedBlk_apply]
  rfl

/-- The output block: the hidden block against the up matrix, plus the bias row, times one, plus the block itself. -/
def outBlk (x : FVec Ideal S512x768 .f32) (g β : FVec Ideal S1x768 .f32) (W : FVec Ideal S768x128 .f32)
    (b : FVec Ideal S1x128 .f32) (U : FVec Ideal S128x768 .f32) (c : FVec Ideal S1x768 .f32) : FVec Ideal S512x768 .f32 :=
  addf (mulf (addf (projUp (truncf .bf16 (hiddenBlk x g β W b) bitsLt_bf16_f32) (truncf .bf16 U bitsLt_bf16_f32)) (spreadRow768 c))
    (broadcast S512x768 (Scalar.ofBits .f32 0x3F800000#32))) x

theorem outBlk_apply (x : FVec Ideal S512x768 .f32) (g β : FVec Ideal S1x768 .f32) (W : FVec Ideal S768x128 .f32)
    (b : FVec Ideal S1x128 .f32) (U : FVec Ideal S128x768 .f32) (c : FVec Ideal S1x768 .f32) (r : Fin 512) (e : Fin 768) :
    outBlk x g β W b U c (ix2 r e)
      = AdapterRow.adapter (fun d' => x (ix2 r d')) (fun d' => g (ix2 (0 : Fin 1) d')) (fun d' => β (ix2 (0 : Fin 1) d'))
          (fun d' k' => W (ix2 d' k')) (fun k' => b (ix2 (0 : Fin 1) k')) (fun k' e' => U (ix2 k' e'))
          (fun e' => c (ix2 (0 : Fin 1) e')) e := by
  unfold outBlk AdapterRow.adapter
  rw [addf_apply, mulf_apply, addf_apply, projUp_apply, spreadRow768_apply, broadcast_apply]
  simp only [truncf_apply, hiddenBlk_apply]
  rfl

/-! ## The printed payload is that composition -/

/-- The value the body stores for a chunk of 512 rows is `outBlk` of the chunk and the parameter blocks (the
    shape casts in it are casts to the same shape). -/
theorem pay_eq (v0 v2 : Vec Ideal S1x768 .f32) (v4 : Vec Ideal S1x128 .f32) (v6 : Vec Ideal S1x768 .f32)
    (v8 : Vec Ideal S768x128 .f32) (v11 : Vec Ideal S128x768 .f32) (v18 : Vec Ideal S512x768 .f32) :
    k0_pay1 (F := Ideal) v0 v2 v4 v6 v8 v11 v18 = outBlk v18 v0 v2 v8 v4 v11 v6 := by
  unfold k0_pay1 outBlk hiddenBlk normedBlk centredBlk rowSums spreadCol spreadRow768 spreadRow128 projDown projUp
  simp only [shapeCast_self]

/-- Row `r` of the stored chunk, column `e`: the adapter of row `r` of the loaded chunk. -/
theorem pay_row (v0 v2 : Vec Ideal S1x768 .f32) (v4 : Vec Ideal S1x128 .f32) (v6 : Vec Ideal S1x768 .f32)
    (v8 : Vec Ideal S768x128 .f32) (v11 : Vec Ideal S128x768 .f32) (v18 : Vec Ideal S512x768 .f32) (r : Fin 512) (e : Fin 768) :
    k0_pay1 (F := Ideal) v0 v2 v4 v6 v8 v11 v18 (ix2 r e)
      = AdapterRow.adapter (fun d' => v18 (ix2 r d')) (fun d' => v0 (ix2 (0 : Fin 1) d')) (fun d' => v2 (ix2 (0 : Fin 1) d'))
          (fun d' k' => v8 (ix2 d' k')) (fun k' => v4 (ix2 (0 : Fin 1) k')) (fun k' e' => v11 (ix2 k' e'))
          (fun e' => v6 (ix2 (0 : Fin 1) e')) e := by
  rw [pay_eq]
  exact outBlk_apply v18 v0 v2 v8 v4 v11 v6 r e

end Cert.KernelIdeal.RowValue

end
-- ==== Proof.BlockValue.lean ====
/-
  What one grid point leaves in its output block.

  The body walks its block of 2048 rows in four chunks of 512: chunk `k` is loaded at row offset `512·k`,
  sent through the body's arithmetic, and stored back at the same offset.  Each stored chunk is therefore the
  restriction, to its rows, of ONE function of the block index: entry `(R, e)` is the adapter of row `R` of the
  input block (`blockFn`).  The four chunks tile the block, so after the body the output block is that function.
-/
import proofs.«138028_j86646670230187_2_alg».proof.Proof.Gen.KernelIdeal.Frame
import proofs.«138028_j86646670230187_2_alg».proof.Proof.PayloadRow
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx

/-- Entry `(R, e)` of the output block: the adapter (hidden width 128) of row `R` of the input block `x0`, with the
    gain and shift rows `x1`, `x2`, the down matrix `x3` and its bias row `x4`, the up matrix `x5` and its bias row `x6`. -/
def blockOut (x0 : Vec Ideal S2048x768 .f32) (x1 x2 : Vec Ideal S1x768 .f32) (x3 : Vec Ideal S768x128 .f32)
    (x4 : Vec Ideal S1x128 .f32) (x5 : Vec Ideal S128x768 .f32) (x6 : Vec Ideal S1x768 .f32) (R : Fin 2048) (e : Fin 768) : EReal :=
  AdapterRow.adapter (fun d => x0 (ix2 R d)) (fun d => x1 (ix2 (0 : Fin 1) d)) (fun d => x2 (ix2 (0 : Fin 1) d))
    (fun d k => x3 (ix2 d k)) (fun k => x4 (ix2 (0 : Fin 1) k)) (fun k e' => x5 (ix2 k e'))
    (fun e' => x6 (ix2 (0 : Fin 1) e')) e

/-- The same as a function of the block index. -/
def blockFn (x0 : Vec Ideal S2048x768 .f32) (x1 x2 : Vec Ideal S1x768 .f32) (x3 : Vec Ideal S768x128 .f32)
    (x4 : Vec Ideal S1x128 .f32) (x5 : Vec Ideal S128x768 .f32) (x6 : Vec Ideal S1x768 .f32) : S2048x768.Idx → EReal :=
  fun y => blockOut x0 x1 x2 x3 x4 x5 x6 (y 0) (y 1)

/-- A chunk of 512 whole rows, taken at any row offset, sent through the body's arithmetic, is the block function on
    those rows: row `r` of the chunk is row `off 0 + r` of the block, and columns are not shifted. -/
theorem chunk_eq (off : Fin 2 → Nat) (inb : ∀ a, off a + S512x768.size a ≤ S2048x768.size a) (h1 : off 1 = 0)
    (x0 : Vec Ideal S2048x768 .f32) (v0 v2 : Vec Ideal S1x768 .f32) (v4 : Vec Ideal S1x128 .f32) (v6 : Vec Ideal S1x768 .f32)
    (v8 : Vec Ideal S768x128 .f32) (v11 : Vec Ideal S128x768 .f32)
    (x : (Rect.unit (s := S2048x768) off S512x768.size inb).shape.Idx) :
    k0_pay1 (F := Ideal) v0 v2 v4 v6 v8 v11 (View.ld x0 (Rect.unit (s := S2048x768) off S512x768.size inb)) x
      = blockFn x0 v0 v2 v8 v4 v11 v6 ((Rect.unit (s := S2048x768) off S512x768.size inb).emb x) := by
  obtain ⟨r, e, rfl⟩ : ∃ (r : Fin 512) (e : Fin 768), x = ix2 r e := ⟨x 0, x 1, eq_ix2 x⟩
  rw [RowValue.pay_row]
  unfold blockFn blockOut
  have hrow : (fun d' : Fin 768 => View.ld x0 (Rect.unit (s := S2048x768) off S512x768.size inb) (ix2 r d'))
      = fun d : Fin 768 => x0 (ix2 ((Rect.unit (s := S2048x768) off S512x768.size inb).emb (ix2 r e) 0) d) :=
    funext fun d => congrArg x0 (funext fun a => Fin.ext (by
      match a with
      | ⟨0, _⟩ => rfl
      | ⟨1, _⟩ => show off 1 + 1 * d.val = d.val; omega))
  have hcol : (Rect.unit (s := S2048x768) off S512x768.size inb).emb (ix2 r e) 1 = e :=
    Fin.ext (by show off 1 + 1 * e.val = e.val; omega)
  rw [hrow, hcol]

/-- One trip of the body's loop stores one chunk: its one piece is a block of the block function (the input block
    being what the input's staging buffer reads as). -/
theorem trip_pieces (𝒱 : Variants) (c : Dev nD) (bd : Option 𝒱.V) (i : grid0.Coords) (arg1 : Memref sig .tc .vmem S2048x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S768x128 .f32) (harg4 : arg4.IsWhole) (arg5 : Memref sig .tc .vmem S1x128 .f32) (harg5 : arg5.IsWhole) (arg6 : Memref sig .tc .vmem S128x768 .f32) (harg6 : arg6.IsWhole) (arg7 : Memref sig .tc .vmem S1x768 .f32) (harg7 : arg7.IsWhole) (arg8 : Memref sig .tc .vmem S2048x768 .f32) (harg8 : arg8.IsWhole) (v0 : Vec Ideal S1x768 .f32) (v2 : Vec Ideal S1x768 .f32) (v4 : Vec Ideal S1x128 .f32) (v6 : Vec Ideal S1x768 .f32) (v8 : Vec Ideal S768x128 .f32) (v11 : Vec Ideal S128x768 .f32) (X_arg1 : BufTy.Contents (Elt Ideal) arg1.view.ty) (k : Fin k0_t1_loop.trips) :
    ∀ p ∈ tripL_k0_t1 (F := Ideal) 𝒱 c bd i arg1 harg1 arg2 harg2 arg3 harg3 arg4 harg4 arg5 harg5 arg6 harg6 arg7 harg7 arg8 harg8 v0 v2 v4 v6 v8 v11 X_arg1 k, ∀ x : p.1.shape.Idx,
      p.2 x = blockFn (arg1.view.read (Elt Ideal) X_arg1) v0 v2 v8 v4 v11 v6 (p.1.emb x) := by
  intro p hp x
  have hL : tripL_k0_t1 (F := Ideal) 𝒱 c bd i arg1 harg1 arg2 harg2 arg3 harg3 arg4 harg4 arg5 harg5 arg6 harg6 arg7 harg7 arg8 harg8 v0 v2 v4 v6 v8 v11 X_arg1 k
      = [⟨Rect.unit (s := S2048x768) (k0_off1 k) S512x768.size (k0_off1_inb k),
          k0_pay1 v0 v2 v4 v6 v8 v11 (View.readAt (Elt Ideal) arg1.view (Rect.unit (s := S2048x768) (k0_off1 k) S512x768.size (k0_off1_inb k)).toLoadRect X_arg1)⟩] := by
    unfold tripL_k0_t1 trip_k0_t1
    rfl
  rw [hL, List.mem_singleton] at hp
  subst hp
  exact chunk_eq (k0_off1 k) (k0_off1_inb k) (by rw [k0_off1_eq]; rfl) (arg1.view.read (Elt Ideal) X_arg1) v0 v2 v4 v6 v8 v11 x

/-- So are the pieces of any number of trips. -/
theorem trips_pieces (𝒱 : Variants) (c : Dev nD) (bd : Option 𝒱.V) (i : grid0.Coords) (arg1 : Memref sig .tc .vmem S2048x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S768x128 .f32) (harg4 : arg4.IsWhole) (arg5 : Memref sig .tc .vmem S1x128 .f32) (harg5 : arg5.IsWhole) (arg6 : Memref sig .tc .vmem S128x768 .f32) (harg6 : arg6.IsWhole) (arg7 : Memref sig .tc .vmem S1x768 .f32) (harg7 : arg7.IsWhole) (arg8 : Memref sig .tc .vmem S2048x768 .f32) (harg8 : arg8.IsWhole) (v0 : Vec Ideal S1x768 .f32) (v2 : Vec Ideal S1x768 .f32) (v4 : Vec Ideal S1x128 .f32) (v6 : Vec Ideal S1x768 .f32) (v8 : Vec Ideal S768x128 .f32) (v11 : Vec Ideal S128x768 .f32) (X_arg1 : BufTy.Contents (Elt Ideal) arg1.view.ty) (n : Nat) :
    ∀ p ∈ pb_k0_t1 (F := Ideal) 𝒱 c bd i arg1 harg1 arg2 harg2 arg3 harg3 arg4 harg4 arg5 harg5 arg6 harg6 arg7 harg7 arg8 harg8 v0 v2 v4 v6 v8 v11 X_arg1 n, ∀ x : p.1.shape.Idx,
      p.2 x = blockFn (arg1.view.read (Elt Ideal) X_arg1) v0 v2 v8 v4 v11 v6 (p.1.emb x) := by
  induction n with
  | zero =>
    intro p hp
    rw [pb_k0_t1.eq_1] at hp
    exact absurd hp List.not_mem_nil
  | succ n ih =>
    intro p hp x
    rw [pb_k0_t1.eq_2] at hp
    unfold pb_k0_t1Step at hp
    by_cases hn : n < k0_t1_loop.trips
    · rw [dif_pos hn] at hp
      rcases List.mem_append.mp hp with h | h
      · exact trip_pieces 𝒱 c bd i arg1 harg1 arg2 harg2 arg3 harg3 arg4 harg4 arg5 harg5 arg6 harg6 arg7 harg7 arg8 harg8 v0 v2 v4 v6 v8 v11 X_arg1 ⟨n, hn⟩ p h x
      · exact ih p h x
    · rw [dif_neg hn] at hp
      exact ih p hp x

/-- After the body at any grid point the output block is the block function of the point's input blocks. -/
theorem out_block (c : Dev nD) (i : grid0.Coords) (arg1 : Memref sig .tc .vmem S2048x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S768x128 .f32) (harg4 : arg4.IsWhole) (arg5 : Memref sig .tc .vmem S1x128 .f32) (harg5 : arg5.IsWhole) (arg6 : Memref sig .tc .vmem S128x768 .f32) (harg6 : arg6.IsWhole) (arg7 : Memref sig .tc .vmem S1x768 .f32) (harg7 : arg7.IsWhole) (arg8 : Memref sig .tc .vmem S2048x768 .f32) (harg8 : arg8.IsWhole)
    (x0 : Vec Ideal S2048x768 .f32) (x1 : Vec Ideal S1x768 .f32) (x2 : Vec Ideal S1x768 .f32) (x3 : Vec Ideal S768x128 .f32) (x4 : Vec Ideal S1x128 .f32) (x5 : Vec Ideal S128x768 .f32) (x6 : Vec Ideal S1x768 .f32) (y : S2048x768.Idx) :
    out0_A_7 (F := Ideal) c i arg1 harg1 arg2 harg2 arg3 harg3 arg4 harg4 arg5 harg5 arg6 harg6 arg7 harg7 arg8 harg8 x0 x1 x2 x3 x4 x5 x6 y = blockFn x0 x1 x2 x3 x4 x5 x6 y := by
  have hz : (![0, 0] : Fin 2 → Nat) = fun _ => 0 := by funext a; fin_cases a <;> rfl
  unfold out0_A_7
  rw [View.read_writes_junk_apply_eq_canon]
  refine View.canon_apply_of_pieces (blockFn x0 x1 x2 x3 x4 x5 x6) _ ?_ y (cover0_A_7 c i arg1 harg1 arg2 harg2 arg3 harg3 arg4 harg4 arg5 harg5 arg6 harg6 arg7 harg7 arg8 harg8 x0 x1 x2 x3 x4 x5 x6 y)
  intro p hp x
  unfold kernelRun0_A at hp
  have h := trips_pieces Variants.none c none i arg1 harg1 arg2 harg2 arg3 harg3 arg4 harg4 arg5 harg5 arg6 harg6 arg7 harg7 arg8 harg8 _ _ _ _ _ _ _ _ p hp x
  rw [harg1.read_unread] at h
  simp only [View.readAt_eq_ld, harg2.read_unread, harg3.read_unread, harg4.read_unread, harg5.read_unread, harg6.read_unread,
    harg7.read_unread, View.ld_unit_zero (S := S1x768) hz, View.ld_unit_zero (S := S1x128) hz,
    View.ld_unit_zero (S := S768x128) hz, View.ld_unit_zero (S := S128x768) hz] at h
  exact h

end Cert.KernelIdeal.BlockValue

end
-- ==== Proof.HostSide.lean ====
/-
  The arrays the region reads, as the host operations before it leave them, read at an index.

  Before the kernel runs, the host flattens the input to 32768 rows, turns the two parameter vectors and the
  up-projection bias into one-row matrices, transposes the two projection matrices and pads the hidden width from 64
  to 128 with zeros (the down matrix by columns, its bias by entries, the up matrix by rows).  Each of these arrays is
  read here at an index in terms of the argument arrays: row `4096·b + s` of the flattened input is row `(b, s)` of the
  input; inside the first 64 hidden units the padded arrays are the transposed arguments; a row of the padded up
  matrix beyond the first 64 is zero.
-/
import proofs.«138028_j86646670230187_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Opens the region-entry contents of one array into the host operations that computed it. -/
local macro "host_prefix" : tactic =>
  `(tactic| (dsimp only [V, V0]
             simp only [hostOps0, hostOps0_1, hostOps0_2, hostOps0_3, hostOps0_4, hostOps0_5, hostOps0_6, List.flatten_cons,
               List.flatten_nil, List.append_nil, List.cons_append, List.nil_append]
             after_results
             rfl))

/-- The padding value: the integer zero converted to a float. -/
abbrev padZero : FVec Ideal S_ .f32 := sitofp .f32 (constantI S_ 32 0#32)

theorem padZero_apply (i : S_.Idx) : padZero i = 0 := by
  show (((0#32 : BitVec 32).toInt : ℝ) : EReal) = 0
  have h : (0#32 : BitVec 32).toInt = 0 := by decide
  rw [h]
  simp

/-! ## The arrays -/

theorem V_v0 (c : Dev nD) : (V m c main_v0 : S32768x768.Idx → EReal)
    = shapeCast S32768x768 (m ((c : Thread nD τ).loc main_arg0)) shapeCasts_S8x4096x768_S32768x768 := by host_prefix

theorem V_v6 (c : Dev nD) : (V m c main_v6 : S1x768.Idx → EReal)
    = shapeCast S1x768 (m ((c : Thread nD τ).loc main_arg1)) shapeCasts_S768_S1x768 := by host_prefix

theorem V_v7 (c : Dev nD) : (V m c main_v7 : S1x768.Idx → EReal)
    = shapeCast S1x768 (m ((c : Thread nD τ).loc main_arg2)) shapeCasts_S768_S1x768 := by host_prefix

theorem V_v9 (c : Dev nD) : (V m c main_v9 : S1x768.Idx → EReal)
    = shapeCast S1x768 (m ((c : Thread nD τ).loc main_arg6)) shapeCasts_S768_S1x768 := by host_prefix

theorem V_v3 (c : Dev nD) : (V m c main_v3 : S768x128.Idx → EReal)
    = pad S768x128 ![0, 0] ![0, 64] ![0, 0]
        (transpose S768x64 [1, 0] (m ((c : Thread nD τ).loc main_arg3)) transposes_S64x768_S768x64_1_0) padZero
        pads_S768x64_S768x128_000_0640 h_S_ := by host_prefix

theorem V_v8 (c : Dev nD) : (V m c main_v8 : S1x128.Idx → EReal)
    = shapeCast S1x128 (pad S128 ![0] ![64] ![0] (m ((c : Thread nD τ).loc main_arg4)) padZero pads_S64_S128_0640 h_S_)
        shapeCasts_S128_S1x128 := by host_prefix

theorem V_v5 (c : Dev nD) : (V m c main_v5 : S128x768.Idx → EReal)
    = pad S128x768 ![0, 0] ![64, 0] ![0, 0]
        (transpose S64x768 [1, 0] (m ((c : Thread nD τ).loc main_arg5)) transposes_S768x64_S64x768_1_0) padZero
        pads_S64x768_S128x768_0640_000 h_S_ := by host_prefix

/-! ## Read at an index -/

/-- Row `4096·b + s` of the flattened input is row `(b, s)` of the input. -/
theorem v0_apply (c : Dev nD) (b : Fin 8) (s : Fin 4096) (d : Fin 768) (R : Fin 32768) (hR : R.val = 4096 * b.val + s.val) :
    V m c main_v0 (ix2 R d) = m ((c : Thread nD τ).loc main_arg0) (ix3 b s d) := by
  rw [V_v0]
  exact shapeCast_apply _ shapeCasts_S8x4096x768_S32768x768 (ix2 R d) (ix3 b s d) (by
    rw [Shape.rowMajor_val_three, Shape.rowMajor_val_two]
    show (b.val * 4096 + s.val) * 768 + d.val = R.val * 768 + d.val
    omega)

/-- The one-row matrices made of the gain, the shift and the up-projection bias. -/
theorem v6_apply (c : Dev nD) (d : Fin 768) :
    V m c main_v6 (ix2 (0 : Fin 1) d) = m ((c : Thread nD τ).loc main_arg1) (ix1 d) := by
  rw [V_v6]
  exact shapeCast_a_1a_apply _ shapeCasts_S768_S1x768 0 d

theorem v7_apply (c : Dev nD) (d : Fin 768) :
    V m c main_v7 (ix2 (0 : Fin 1) d) = m ((c : Thread nD τ).loc main_arg2) (ix1 d) := by
  rw [V_v7]
  exact shapeCast_a_1a_apply _ shapeCasts_S768_S1x768 0 d

theorem v9_apply (c : Dev nD) (d : Fin 768) :
    V m c main_v9 (ix2 (0 : Fin 1) d) = m ((c : Thread nD τ).loc main_arg6) (ix1 d) := by
  rw [V_v9]
  exact shapeCast_a_1a_apply _ shapeCasts_S768_S1x768 0 d

/-- Inside the first 64 columns the padded down matrix is the transposed argument. -/
theorem v3_lo (c : Dev nD) (d : Fin 768) (k : Fin 64) (k' : Fin 128) (hk : k'.val = k.val) :
    V m c main_v3 (ix2 d k') = m ((c : Thread nD τ).loc main_arg3) (ix2 k d) := by
  rw [V_v3]
  refine (pad_apply_of_inside _ _ _ _ _ pads_S768x64_S768x128_000_0640 h_S_ (ix2 d k') (ix2 d k) (fun a => ?_)).trans
    (transpose_ix2_apply _ transposes_S64x768_S768x64_1_0 d k)
  match a with
  | ⟨0, _⟩ => show d.val = 0 + d.val * (0 + 1); omega
  | ⟨1, _⟩ => show k'.val = 0 + k.val * (0 + 1); omega

/-- Inside the first 64 entries the padded bias row is the argument. -/
theorem v8_lo (c : Dev nD) (k : Fin 64) (k' : Fin 128) (hk : k'.val = k.val) :
    V m c main_v8 (ix2 (0 : Fin 1) k') = m ((c : Thread nD τ).loc main_arg4) (ix1 k) := by
  rw [V_v8]
  refine (shapeCast_a_1a_apply _ shapeCasts_S128_S1x128 0 k').trans ?_
  refine pad_apply_of_inside _ _ _ _ _ pads_S64_S128_0640 h_S_ (ix1 k') (ix1 k) (fun a => ?_)
  match a with
  | ⟨0, _⟩ => show k'.val = 0 + k.val * (0 + 1); omega

/-- Inside the first 64 rows the padded up matrix is the transposed argument, -/
theorem v5_lo (c : Dev nD) (k : Fin 64) (k' : Fin 128) (hk : k'.val = k.val) (e : Fin 768) :
    V m c main_v5 (ix2 k' e) = m ((c : Thread nD τ).loc main_arg5) (ix2 e k) := by
  rw [V_v5]
  refine (pad_apply_of_inside _ _ _ _ _ pads_S64x768_S128x768_0640_000 h_S_ (ix2 k' e) (ix2 k e) (fun a => ?_)).trans
    (transpose_ix2_apply _ transposes_S768x64_S64x768_1_0 k e)
  match a with
  | ⟨0, _⟩ => show k'.val = 0 + k.val * (0 + 1); omega
  | ⟨1, _⟩ => show e.val = 0 + e.val * (0 + 1); omega

/-- and beyond them it is zero. -/
theorem v5_hi (c : Dev nD) (k' : Fin 128) (hk : 64 ≤ k'.val) (e : Fin 768) :
    V m c main_v5 (ix2 k' e) = (0 : EReal) := by
  rw [V_v5]
  refine (pad_apply_of_not_inside _ _ _ _ _ pads_S64x768_S128x768_0640_000 h_S_ (ix2 k' e) 0 ?_).trans (padZero_apply _)
  show ¬(0 ≤ k'.val ∧ (k'.val - 0) % (0 + 1) = 0 ∧ (k'.val - 0) / (0 + 1) < 64)
  omega

end Cert.KernelIdeal.HostSide

end
-- ==== Proof.ResultSpec.lean ====
/-
  The whole result as one function of the seven argument arrays.

  Entry `(b, s, e)` of the result is output `e` of the adapter (hidden width 64) applied to row `(b, s)` of the input
  `X0`, with the gain `X1`, the shift `X2`, the down matrix `X3` given as 64 rows of width 768 (so entry `(d, k)` of
  the matrix that multiplies a row is `X3 (k, d)`), its bias `X4`, the up matrix `X5` given as 768 rows of width 64
  (entry `(k, e)` of the multiplying matrix is `X5 (e, k)`) and its bias `X6`.
-/
import proofs.«138028_j86646670230187_2_alg».proof.Proof.RowSpec
import Idealize.ShloMosaic.Lib.ValueIdx

noncomputable section

open Idealize.ShloMosaic Idealize.ShloMosaic.ValueIdx

namespace Cert.AdapterRow

/-- The result array, index by index. -/
def resultFn (X0 : (⟨3, ![8, 4096, 768]⟩ : Shape).Idx → EReal) (X1 X2 : (⟨1, ![768]⟩ : Shape).Idx → EReal)
    (X3 : (⟨2, ![64, 768]⟩ : Shape).Idx → EReal) (X4 : (⟨1, ![64]⟩ : Shape).Idx → EReal)
    (X5 : (⟨2, ![768, 64]⟩ : Shape).Idx → EReal) (X6 : (⟨1, ![768]⟩ : Shape).Idx → EReal) :
    (⟨3, ![8, 4096, 768]⟩ : Shape).Idx → EReal :=
  fun i => adapter (fun d : Fin 768 => X0 (ix3 (i 0) (i 1) d)) (fun d : Fin 768 => X1 (ix1 d)) (fun d : Fin 768 => X2 (ix1 d))
    (fun (d : Fin 768) (k : Fin 64) => X3 (ix2 k d)) (fun k : Fin 64 => X4 (ix1 k)) (fun (k : Fin 64) (e : Fin 768) => X5 (ix2 e k))
    (fun e : Fin 768 => X6 (ix1 e)) (i 2)

end Cert.AdapterRow

end
-- ==== Proof.KernelValue.lean ====
/-
  The kernel program's result.

  Grid point `t` of the sixteen works on rows `2048·t … 2048·t + 2047` of the flattened input and writes back the same
  rows of the output; the parameter blocks are the whole parameter arrays at every point.  So what point `t` writes
  back is block `t` of ONE function of the arrays the region reads: entry `(R, e)` is the adapter (hidden width 128) of
  row `R` (`arrFn`).  The sixteen blocks tile the array, so after the region the array is that function; the host then
  reshapes it to [8, 4096, 768].  Read through the host operations before the region, with the zero rows of the padded
  up matrix dropped by the padding law, that is `AdapterRow.resultFn` of the argument arrays.
-/
import proofs.«138028_j86646670230187_2_alg».proof.Proof.BlockValue
import proofs.«138028_j86646670230187_2_alg».proof.Proof.HostSide
import proofs.«138028_j86646670230187_2_alg».proof.Proof.ResultSpec

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The array the region leaves, as a function of the seven arrays it reads: entry `(R, e)` is the adapter of row `R`. -/
def arrFn (A0 : S32768x768.Idx → EReal) (A1 A2 : S1x768.Idx → EReal) (A3 : S768x128.Idx → EReal) (A4 : S1x128.Idx → EReal)
    (A5 : S128x768.Idx → EReal) (A6 : S1x768.Idx → EReal) : S32768x768.Idx → EReal :=
  fun i => AdapterRow.adapter (fun d : Fin 768 => A0 (ix2 (i 0) d)) (fun d : Fin 768 => A1 (ix2 (0 : Fin 1) d))
    (fun d : Fin 768 => A2 (ix2 (0 : Fin 1) d)) (fun (d : Fin 768) (k : Fin 128) => A3 (ix2 d k))
    (fun k : Fin 128 => A4 (ix2 (0 : Fin 1) k)) (fun (k : Fin 128) (e : Fin 768) => A5 (ix2 k e))
    (fun e : Fin 768 => A6 (ix2 (0 : Fin 1) e)) (i 1)

/-- A block whose rows are rows of the big array and whose parameter blocks are the parameter arrays has, at a block
    index, the value of `arrFn` at the array index with the same row and column. -/
theorem block_is_arr (x0 : Vec Ideal S2048x768 .f32) (x1 x2 : Vec Ideal S1x768 .f32) (x3 : Vec Ideal S768x128 .f32)
    (x4 : Vec Ideal S1x128 .f32) (x5 : Vec Ideal S128x768 .f32) (x6 : Vec Ideal S1x768 .f32)
    (A0 : S32768x768.Idx → EReal) (A1 A2 : S1x768.Idx → EReal) (A3 : S768x128.Idx → EReal) (A4 : S1x128.Idx → EReal)
    (A5 : S128x768.Idx → EReal) (A6 : S1x768.Idx → EReal) (y : S2048x768.Idx) (i : S32768x768.Idx)
    (h0 : ∀ d : Fin 768, x0 (ix2 (y 0) d) = A0 (ix2 (i 0) d)) (h1 : ∀ d : Fin 768, x1 (ix2 (0 : Fin 1) d) = A1 (ix2 (0 : Fin 1) d))
    (h2 : ∀ d : Fin 768, x2 (ix2 (0 : Fin 1) d) = A2 (ix2 (0 : Fin 1) d))
    (h3 : ∀ (d : Fin 768) (k : Fin 128), x3 (ix2 d k) = A3 (ix2 d k)) (h4 : ∀ k : Fin 128, x4 (ix2 (0 : Fin 1) k) = A4 (ix2 (0 : Fin 1) k))
    (h5 : ∀ (k : Fin 128) (e : Fin 768), x5 (ix2 k e) = A5 (ix2 k e)) (h6 : ∀ e : Fin 768, x6 (ix2 (0 : Fin 1) e) = A6 (ix2 (0 : Fin 1) e))
    (hcol : (y 1).val = (i 1).val) :
    BlockValue.blockFn x0 x1 x2 x3 x4 x5 x6 y = arrFn A0 A1 A2 A3 A4 A5 A6 i := by
  unfold BlockValue.blockFn BlockValue.blockOut arrFn
  exact AdapterRow.adapter_args_congr (funext h0) (funext h1) (funext h2) (funext fun d => funext fun k => h3 d k) (funext h4)
    (funext fun k => funext fun e => h5 k e) (funext h6) (Fin.ext hcol)

/-! ## The windows' blocks, read off the arrays -/

/-- The printed index maps over the grid: the input's and the output's block index is the point, on the row axis; every
    parameter window stays at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `R` of the input block at point `t` is row `2048·t + R` of the flattened input. -/
theorem blk0 (c : Dev nD) (t : Fin cfg0.N) (R : Fin 2048) (d : Fin 768) (R' : Fin 32768) (hR : R'.val = 2048 * t.val + R.val) :
    iblk m c 0 t (ix2 R d) = V m c main_v0 (ix2 R' d) := by
  obtain ⟨f0, f1, -⟩ := idx_facts t
  show V m c main_v0 (((cfg0.win 0).blk t).view.emb (ix2 R d)) = V m c main_v0 (ix2 R' d)
  refine congrArg (V m c main_v0) (funext fun a => Fin.ext ?_)
  match a with
  | ⟨0, _⟩ => show win0_0.index t (0 : Fin 2) * 2048 + 1 * R.val = R'.val; rw [f0, hR]; omega
  | ⟨1, _⟩ => show win0_0.index t (1 : Fin 2) * 768 + 1 * d.val = d.val; rw [f1]; omega

/-- Each parameter block is its whole array. -/
theorem blk1 (c : Dev nD) (t : Fin cfg0.N) (z : Fin 1) (d : Fin 768) : iblk m c 1 t (ix2 z d) = V m c main_v6 (ix2 z d) := by
  obtain ⟨-, -, f0, f1, -⟩ := idx_facts t
  show V m c main_v6 (((cfg0.win 1).blk t).view.emb (ix2 z d)) = V m c main_v6 (ix2 z d)
  refine congrArg (V m c main_v6) (funext fun a => Fin.ext ?_)
  match a with
  | ⟨0, _⟩ => show win0_1.index t (0 : Fin 2) * 1 + 1 * z.val = z.val; rw [f0]; omega
  | ⟨1, _⟩ => show win0_1.index t (1 : Fin 2) * 768 + 1 * d.val = d.val; rw [f1]; omega

theorem blk2 (c : Dev nD) (t : Fin cfg0.N) (z : Fin 1) (d : Fin 768) : iblk m c 2 t (ix2 z d) = V m c main_v7 (ix2 z d) := by
  obtain ⟨-, -, -, -, f0, f1, -⟩ := idx_facts t
  show V m c main_v7 (((cfg0.win 2).blk t).view.emb (ix2 z d)) = V m c main_v7 (ix2 z d)
  refine congrArg (V m c main_v7) (funext fun a => Fin.ext ?_)
  match a with
  | ⟨0, _⟩ => show win0_2.index t (0 : Fin 2) * 1 + 1 * z.val = z.val; rw [f0]; omega
  | ⟨1, _⟩ => show win0_2.index t (1 : Fin 2) * 768 + 1 * d.val = d.val; rw [f1]; omega

theorem blk3 (c : Dev nD) (t : Fin cfg0.N) (d : Fin 768) (k : Fin 128) : iblk m c 3 t (ix2 d k) = V m c main_v3 (ix2 d k) := by
  obtain ⟨-, -, -, -, -, -, f0, f1, -⟩ := idx_facts t
  show V m c main_v3 (((cfg0.win 3).blk t).view.emb (ix2 d k)) = V m c main_v3 (ix2 d k)
  refine congrArg (V m c main_v3) (funext fun a => Fin.ext ?_)
  match a with
  | ⟨0, _⟩ => show win0_3.index t (0 : Fin 2) * 768 + 1 * d.val = d.val; rw [f0]; omega
  | ⟨1, _⟩ => show win0_3.index t (1 : Fin 2) * 128 + 1 * k.val = k.val; rw [f1]; omega

theorem blk4 (c : Dev nD) (t : Fin cfg0.N) (z : Fin 1) (k : Fin 128) : iblk m c 4 t (ix2 z k) = V m c main_v8 (ix2 z k) := by
  obtain ⟨-, -, -, -, -, -, -, -, f0, f1, -⟩ := idx_facts t
  show V m c main_v8 (((cfg0.win 4).blk t).view.emb (ix2 z k)) = V m c main_v8 (ix2 z k)
  refine congrArg (V m c main_v8) (funext fun a => Fin.ext ?_)
  match a with
  | ⟨0, _⟩ => show win0_4.index t (0 : Fin 2) * 1 + 1 * z.val = z.val; rw [f0]; omega
  | ⟨1, _⟩ => show win0_4.index t (1 : Fin 2) * 128 + 1 * k.val = k.val; rw [f1]; omega

theorem blk5 (c : Dev nD) (t : Fin cfg0.N) (k : Fin 128) (e : Fin 768) : iblk m c 5 t (ix2 k e) = V m c main_v5 (ix2 k e) := by
  obtain ⟨-, -, -, -, -, -, -, -, -, -, f0, f1, -⟩ := idx_facts t
  show V m c main_v5 (((cfg0.win 5).blk t).view.emb (ix2 k e)) = V m c main_v5 (ix2 k e)
  refine congrArg (V m c main_v5) (funext fun a => Fin.ext ?_)
  match a with
  | ⟨0, _⟩ => show win0_5.index t (0 : Fin 2) * 128 + 1 * k.val = k.val; rw [f0]; omega
  | ⟨1, _⟩ => show win0_5.index t (1 : Fin 2) * 768 + 1 * e.val = e.val; rw [f1]; omega

theorem blk6 (c : Dev nD) (t : Fin cfg0.N) (z : Fin 1) (e : Fin 768) : iblk m c 6 t (ix2 z e) = V m c main_v9 (ix2 z e) := by
  obtain ⟨-, -, -, -, -, -, -, -, -, -, -, -, f0, f1, -⟩ := idx_facts t
  show V m c main_v9 (((cfg0.win 6).blk t).view.emb (ix2 z e)) = V m c main_v9 (ix2 z e)
  refine congrArg (V m c main_v9) (funext fun a => Fin.ext ?_)
  match a with
  | ⟨0, _⟩ => show win0_6.index t (0 : Fin 2) * 1 + 1 * z.val = z.val; rw [f0]; omega
  | ⟨1, _⟩ => show win0_6.index t (1 : Fin 2) * 768 + 1 * e.val = e.val; rw [f1]; omega

/-! ## What a point writes back, the cover, the array after the region -/

/-- What point `t` writes back is block `t` of `arrFn` of the arrays as the region finds them. -/
theorem flushed_eq (c : Dev nD) (t : Fin cfg0.N) :
    (dats m 0 c).flushed 7 t = ((cfg0.win 7).blk t).view.read (Elt Ideal) (arrFn (V m c main_v0) (V m c main_v6) (V m c main_v7) (V m c main_v3) (V m c main_v8) (V m c main_v5) (V m c main_v9)) := by
  show (cfg0.win 7).cut (grid0.coords t) ((dats m 0 c).after 7 t) = _
  rw [after0_7]
  unfold outsAt0
  obtain ⟨-, -, -, -, -, -, -, -, -, -, -, -, -, -, f0, f1⟩ := idx_facts t
  funext j
  have hj0 : (j 0).val < 2048 := (j 0).isLt
  refine (BlockValue.out_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) ((cfg0.win 7).xinj (grid0.coords t) j)).trans ?_
  show BlockValue.blockFn (iblk m c 0 t) (iblk m c 1 t) (iblk m c 2 t) (iblk m c 3 t) (iblk m c 4 t) (iblk m c 5 t) (iblk m c 6 t)
      ((cfg0.win 7).xinj (grid0.coords t) j)
    = arrFn (V m c main_v0) (V m c main_v6) (V m c main_v7) (V m c main_v3) (V m c main_v8) (V m c main_v5) (V m c main_v9) (((cfg0.win 7).blk t).view.emb j)
  refine block_is_arr (iblk m c 0 t) (iblk m c 1 t) (iblk m c 2 t) (iblk m c 3 t) (iblk m c 4 t) (iblk m c 5 t) (iblk m c 6 t)
    (V m c main_v0) (V m c main_v6) (V m c main_v7) (V m c main_v3) (V m c main_v8) (V m c main_v5) (V m c main_v9) ((cfg0.win 7).xinj (grid0.coords t) j) (((cfg0.win 7).blk t).view.emb j)
    (fun d => blk0 m c t _ d _ ?_) (fun d => blk1 m c t 0 d) (fun d => blk2 m c t 0 d) (fun d k => blk3 m c t d k)
    (fun k => blk4 m c t 0 k) (fun k e => blk5 m c t k e) (fun e => blk6 m c t 0 e) ?_
  · show win0_7.index t (0 : Fin 2) * 2048 + 1 * (j 0).val = 2048 * t.val + (j 0).val
    rw [f0]; omega
  · show (j 1).val = win0_7.index t (1 : Fin 2) * 768 + 1 * (j 1).val
    rw [f1]; omega

/-- An index of the array is in point `t`'s block iff each coordinate is in the block's range on its axis. -/
theorem mem_blk (t : Fin cfg0.N) (i : S32768x768.Idx) :
    i ∈ ((cfg0.win 7).blk t).view.set ↔ ∀ a : Fin 2, win0_7.index t a * S2048x768.size a ≤ (i a).val
      ∧ (i a).val < win0_7.index t a * S2048x768.size a + S2048x768.size a := by
  show i ∈ ((View.whole main_v10).slice (win0_7.rect t)).set ↔ _
  rw [View.set_slice_whole, Rect.mem_set_unit]
  exact Iff.rfl

/-- Every row of the array is in the block of the point `row / 2048`. -/
theorem cover (i : S32768x768.Idx) : ∃ t : Fin cfg0.N, (cfg0.win 7).flush t = true ∧ i ∈ ((cfg0.win 7).blk t).view.set := by
  have hi0 : (i 0).val < 32768 := (i 0).isLt
  have hi1 : (i 1).val < 768 := (i 1).isLt
  have hN : grid0.N = 16 := N_0
  let t : Fin cfg0.N := ⟨(i 0).val / 2048, by show (i 0).val / 2048 < grid0.N; omega⟩
  obtain ⟨-, -, -, -, -, -, -, -, -, -, -, -, -, -, f0, f1⟩ := idx_facts t
  have ht : t.val = (i 0).val / 2048 := rfl
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    rw [f0, ht]; omega
  | ⟨1, _⟩ =>
    show win0_7.index t (1 : Fin 2) * 768 ≤ (i 1).val ∧ (i 1).val < win0_7.index t (1 : Fin 2) * 768 + 768
    rw [f1]; omega

/-- The array after the region is `arrFn` of the arrays as the region finds them. -/
theorem final (c : Dev nD) : (dats m 0 c).arrAt 7 cfg0.N = arrFn (V m c main_v0) (V m c main_v6) (V m c main_v7) (V m c main_v3) (V m c main_v8) (V m c main_v5) (V m c main_v9) :=
  (dats m 0 c).arrAt_eq_of_cover 7 (arrFn (V m c main_v0) (V m c main_v6) (V m c main_v7) (V m c main_v3) (V m c main_v8) (V m c main_v5) (V m c main_v9)) (fun t _ => flushed_eq m c t) cover

/-! ## The reshaped result, in terms of the arguments -/

/-- The array the region leaves, reshaped to [8, 4096, 768], is `resultFn` of the argument arrays: row `(b, s)` is row
    `4096·b + s` of the flattened array, the arrays the region reads are the arguments re-laid, and the 64 hidden units
    that the padding added have zero rows in the up matrix. -/
theorem reshaped_eq (c : Dev nD) :
    shapeCast S8x4096x768 (arrFn (V m c main_v0) (V m c main_v6) (V m c main_v7) (V m c main_v3) (V m c main_v8) (V m c main_v5) (V m c main_v9)) shapeCasts_S32768x768_S8x4096x768
      = AdapterRow.resultFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, s, e, rfl⟩ : ∃ (b : Fin 8) (s : Fin 4096) (e : Fin 768), i = ix3 b s e := ⟨i 0, i 1, i 2, eq_ix3 i⟩
  have hb : b.val < 8 := b.isLt
  have hs : s.val < 4096 := s.isLt
  let R : Fin 32768 := ⟨4096 * b.val + s.val, by omega⟩
  have hR : R.val = 4096 * b.val + s.val := rfl
  refine (shapeCast_apply _ shapeCasts_S32768x768_S8x4096x768 (ix3 b s e) (ix2 R e) (by
    rw [Shape.rowMajor_val_three, Shape.rowMajor_val_two]
    show R.val * 768 + e.val = (b.val * 4096 + s.val) * 768 + e.val
    rw [hR]; omega)).trans ?_
  unfold arrFn AdapterRow.resultFn
  have key := AdapterRow.adapter_pad (D := 768) (H := 64) (P := 64)
    (fun d : Fin 768 => m ((c : Thread nD τ).loc main_arg0) (ix3 b s d))
    (fun d : Fin 768 => m ((c : Thread nD τ).loc main_arg1) (ix1 d))
    (fun d : Fin 768 => m ((c : Thread nD τ).loc main_arg2) (ix1 d))
    (fun (d : Fin 768) (k : Fin 64) => m ((c : Thread nD τ).loc main_arg3) (ix2 k d))
    (fun k : Fin 64 => m ((c : Thread nD τ).loc main_arg4) (ix1 k))
    (fun (k : Fin 64) (e' : Fin 768) => m ((c : Thread nD τ).loc main_arg5) (ix2 e' k))
    (fun e' : Fin 768 => m ((c : Thread nD τ).loc main_arg6) (ix1 e'))
    (fun (d : Fin 768) (k : Fin (64 + 64)) => V m c main_v3 (ix2 d k))
    (fun k : Fin (64 + 64) => V m c main_v8 (ix2 (0 : Fin 1) k))
    (fun (k : Fin (64 + 64)) (e' : Fin 768) => V m c main_v5 (ix2 k e'))
    (fun d k => HostSide.v3_lo m c d k (Fin.castAdd 64 k) rfl)
    (fun k => HostSide.v8_lo m c k (Fin.castAdd 64 k) rfl)
    (fun k e' => HostSide.v5_lo m c k (Fin.castAdd 64 k) rfl e')
    (fun k e' => HostSide.v5_hi m c (Fin.natAdd 64 k) (by show 64 ≤ 64 + k.val; omega) e') e
  refine Eq.trans ?_ key
  exact AdapterRow.adapter_args_congr (funext fun d => HostSide.v0_apply m c b s d R hR) (funext fun d => HostSide.v6_apply m c d)
    (funext fun d => HostSide.v7_apply m c d) rfl rfl rfl (funext fun e' => HostSide.v9_apply m c e') rfl

/-! ## The run -/

/-- Every weakly fair execution of the kernel program terminates with the result array at `resultFn` of the argument
    arrays and the argument arrays unchanged. -/
theorem run : θ_run defs (onTc (τ := τ) (main (F := Ideal))) ⟨m, fun _ => 0, ρ⟩ fun r => ∀ c : Dev nD,
      r.2.mem ((c.tc : Thread nD τ).loc main_v11) = AdapterRow.resultFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hres : ∀ c : Dev nD, Pipeline.afterTail₀ cfgs (dats m) 0 (V0 m) [hostOps1] c main_v11
      = AdapterRow.resultFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    intro c
    unfold Pipeline.afterTail₀
    show StableHlo.after hostOps1 _ (Proc.devRef .tc main_v11) = _
    after_results
    refine Eq.trans ?_ (reshaped_eq m c)
    refine congrArg (fun A => shapeCast S8x4096x768 A shapeCasts_S32768x768_S8x4096x768) ?_
    exact (Pipeline.withArrays_arr spec0 launch0.win.arr_inj c _ _ 7).trans (final m c)
  exact (θ_run defs _ _).mono (fun r h c => ⟨((h c).2 main_v11 (Pipeline.mem_restRefs_of main_v11 (by decide) (by decide))).trans (hres c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KernelValue

end
-- ==== Proof.RefSide.lean ====
/-
  The reference program's result is the adapter of each row.

  The reference computes, for the whole [8, 4096, 768] input at once, the mean and variance of each row (sums over the
  last axis, started from zero, divided by 768), the normalised row, the down projection against the 64 rows of the down
  matrix, the clip at zero, the up projection against the 768 rows of the up matrix, the bias, the scale by one and the
  residual.  Read at an index `(b, s, e)` operation by operation, every operand index is row `(b, s)` of the input or a
  coordinate of a parameter, and the value is `AdapterRow.resultFn` there: the sums' zero start is absorbed (`0 + x = x`).
-/
import proofs.«138028_j86646670230187_2_alg».proof.Proof.Gen.ReferenceIdeal.Read
import proofs.«138028_j86646670230187_2_alg».proof.Proof.ResultSpec

set_option maxRecDepth 16384

noncomputable section

namespace Cert.ReferenceIdeal.RefValue

open Cert.ReferenceIdeal Cert.ReferenceIdeal.Read Idealize.ShloMosaic Idealize.ShloMosaic.ValueIdx
open scoped BigOperators

/-! ## The operand indices, in coordinates -/

section Indices
variable (b : Fin 8) (s : Fin 4096)

theorem up_lhs (e : Fin 768) (k : Fin 64) : lidx_main_v29 (ix3 b s e) k = ix3 b s k := eq_ix3 _
theorem up_rhs (e : Fin 768) (k : Fin 64) : ridx_main_v29 (ix3 b s e) k = ix2 e k := eq_ix2 _
theorem down_lhs (k : Fin 64) (d : Fin 768) : lidx_main_v24 (ix3 b s k) d = ix3 b s d := eq_ix3 _
theorem down_rhs (k : Fin 64) (d : Fin 768) : ridx_main_v24 (ix3 b s k) d = ix2 k d := eq_ix2 _
theorem bias_down_a (k : Fin 64) : idx_main_v26 (ix3 b s k) = ix3 (0 : Fin 1) (0 : Fin 1) k := eq_ix3 _
theorem bias_down_b (z z' : Fin 1) (k : Fin 64) : idx_main_v25 (ix3 z z' k) = ix1 k := eq_ix1 _
theorem col_a (d : Fin 768) : idx_main_v4 (ix3 b s d) = ix3 b s (0 : Fin 1) := eq_ix3 _
theorem col_b (d : Fin 768) : idx_main_v11 (ix3 b s d) = ix3 b s (0 : Fin 1) := eq_ix3 _
theorem col_c (d : Fin 768) : idx_main_v16 (ix3 b s d) = ix3 b s (0 : Fin 1) := eq_ix3 _
theorem keep_a (z : Fin 1) : idx_main_v1 (ix3 b s z) = ix2 b s := eq_ix2 _
theorem keep_b (z : Fin 1) : idx_main_v8 (ix3 b s z) = ix2 b s := eq_ix2 _
theorem sum_a (d : Fin 768) : idx_main_v0 (ix2 b s) d = ix3 b s d := eq_ix3 _
theorem sum_b (d : Fin 768) : idx_main_v7 (ix2 b s) d = ix3 b s d := eq_ix3 _
theorem gain_a (d : Fin 768) : idx_main_v19 (ix3 b s d) = ix3 (0 : Fin 1) (0 : Fin 1) d := eq_ix3 _
theorem gain_b (z z' : Fin 1) (d : Fin 768) : idx_main_v18 (ix3 z z' d) = ix1 d := eq_ix1 _
theorem shift_a (d : Fin 768) : idx_main_v22 (ix3 b s d) = ix3 (0 : Fin 1) (0 : Fin 1) d := eq_ix3 _
theorem shift_b (z z' : Fin 1) (d : Fin 768) : idx_main_v21 (ix3 z z' d) = ix1 d := eq_ix1 _
theorem bias_up_a (d : Fin 768) : idx_main_v31 (ix3 b s d) = ix3 (0 : Fin 1) (0 : Fin 1) d := eq_ix3 _
theorem bias_up_b (z z' : Fin 1) (d : Fin 768) : idx_main_v30 (ix3 z z' d) = ix1 d := eq_ix1 _

end Indices

/-- A sum started from the literal zero is the sum. -/
theorem zero_lit_add (x : EReal) : Ideal.ofBits .f32 0x00000000#32 + x = x := by
  rw [Ideal.ofBits_zero_f32, zero_add]

/-! ## The reference's last stage is `resultFn` -/

theorem ref_eq (X0 : (⟨S8x4096x768, .f32⟩ : BufTy).Contents (Elt Ideal)) (X1 X2 : (⟨S768, .f32⟩ : BufTy).Contents (Elt Ideal)) (X3 : (⟨S64x768, .f32⟩ : BufTy).Contents (Elt Ideal)) (X4 : (⟨S64, .f32⟩ : BufTy).Contents (Elt Ideal)) (X5 : (⟨S768x64, .f32⟩ : BufTy).Contents (Elt Ideal)) (X6 : (⟨S768, .f32⟩ : BufTy).Contents (Elt Ideal)) :
    val_main_v35 (F := Ideal) X0 X1 X2 X3 X4 X5 X6 = AdapterRow.resultFn X0 X1 X2 X3 X4 X5 X6 := by
  funext i
  obtain ⟨b, s, e, rfl⟩ : ∃ (b : Fin 8) (s : Fin 4096) (e : Fin 768), i = ix3 b s e := ⟨i 0, i 1, i 2, eq_ix3 i⟩
  simp only [val_main_cst_apply, val_main_v0_apply, val_main_v1_apply, val_main_cst_0_apply, val_main_v2_apply, val_main_v3_apply, val_main_v4_apply, val_main_v5_apply, val_main_v6_apply, val_main_cst_1_apply, val_main_v7_apply, val_main_v8_apply, val_main_cst_2_apply, val_main_v9_apply, val_main_v10_apply, val_main_v11_apply, val_main_v12_apply, val_main_cst_3_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_call0_cst_apply, val_main_call0_v0_apply, val_main_v28_apply, val_main_v29_apply, val_main_v30_apply, val_main_v31_apply, val_main_v32_apply, val_main_cst_4_apply, val_main_v33_apply, val_main_v34_apply, val_main_v35_apply]
  simp only [up_lhs, up_rhs, down_lhs, down_rhs, bias_down_a, bias_down_b, col_a, col_b, col_c, keep_a, keep_b, sum_a, sum_b,
    gain_a, gain_b, shift_a, shift_b, bias_up_a, bias_up_b]
  simp only [Ideal.addf_def, Ideal.subf_def, Ideal.mulf_def, Ideal.hostDivf_def, Ideal.hostUnary_rsqrt_def, Ideal.maximumf_def,
    Ideal.ofBits_def, zero_lit_add]
  rfl

end Cert.ReferenceIdeal.RefValue

end
-- ==== Proof.lean ====
/-
  The kernel and its reference compute the same adapter, row by row.

  Both programs take an input of 8 × 4096 rows of width 768 and, for every row, layer-normalise it, project it down to a
  hidden width, clip at zero, project it back up, and add the result to the row (`AdapterRow.adapter`, Proof/RowSpec.lean).
  The reference does this on the whole array with 64 hidden units.  The kernel flattens the rows, pads the hidden
  width to 128 with zero columns, bias entries and rows, and walks the 32768 rows in sixteen blocks of 2048, each in
  four chunks of 512.  Over the extended reals the two results are one function of the arguments
  (`AdapterRow.resultFn`, Proof/ResultSpec.lean):

  * the body's arithmetic on a chunk is the adapter of each of its rows (Proof/PayloadRow.lean);
  * the four chunks a grid point stores tile its block (Proof/BlockValue.lean), the sixteen blocks tile the array, and
    the arrays the region reads are the arguments re-laid (Proof/HostSide.lean), so the kernel program ends at
    `resultFn` once the padded hidden units are dropped — each contributes `h · 0 = 0` (Proof/KernelValue.lean);
  * the reference, read at an index operation by operation, is `resultFn` as it stands (Proof/RefSide.lean).

  The frames of the two kernel programs are the generated frame certificates; the reference's is its generated run;
  the idealisation rewrote nothing, so its conjunct is trivial.  The finiteness of the inputs is never used.
-/
import proofs.«138028_j86646670230187_2_alg».proof.Defs
import proofs.«138028_j86646670230187_2_alg».proof.Proof.Gen.Kernel
import proofs.«138028_j86646670230187_2_alg».proof.Proof.Gen.Kernel.Frame
import proofs.«138028_j86646670230187_2_alg».proof.Proof.Gen.KernelIdeal
import proofs.«138028_j86646670230187_2_alg».proof.Proof.Gen.KernelIdeal.Frame
import proofs.«138028_j86646670230187_2_alg».proof.Proof.Gen.ReferenceIdeal
import proofs.«138028_j86646670230187_2_alg».proof.Proof.Gen.ReferenceIdeal.Run
import proofs.«138028_j86646670230187_2_alg».proof.Proof.Gen.ReferenceIdeal.Read
import proofs.«138028_j86646670230187_2_alg».proof.Proof.Gen.Pre_finite_inputs
import proofs.«138028_j86646670230187_2_alg».proof.Proof.KernelValue
import proofs.«138028_j86646670230187_2_alg».proof.Proof.RefSide
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with the result at `resultFn` of the arguments. -/
theorem algebraic : Cert.algebraic_KernelIdeal_ReferenceIdeal := by
  intro m ρ m' ρ' _ hagree
  refine ⟨fun c => Cert.AdapterRow.resultFn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6⟩ := hagree c
  rw [(h c).1, Cert.ReferenceIdeal.Read.val_main_v35_eq, Cert.ReferenceIdeal.RefValue.ref_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
